-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S2x8x128 : Shape := ⟨3, ![2, 8, 128]⟩
abbrev S32768x128 : Shape := ⟨2, ![32768, 128]⟩
abbrev S1x8x128 : Shape := ⟨3, ![1, 8, 128]⟩
abbrev S4096x8x128 : Shape := ⟨3, ![4096, 8, 128]⟩
abbrev S8x128 : Shape := ⟨2, ![8, 128]⟩
abbrev S_ : Shape := ⟨0, ![]⟩

abbrev nBuf : Space → Nat
  | .hbm => 5
  | .vmem => 4
  | .smem => 0
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S2x8x128, .f32⟩
  | .hbm, ⟨3, _⟩ => ⟨S_, .f32⟩
  | .hbm, ⟨4, _⟩ => ⟨S_, .f32⟩
  | .local _ .vmem, ⟨0, _⟩ => ⟨S32768x128, .f32⟩
  | .local _ .vmem, ⟨1, _⟩ => ⟨S32768x128, .f32⟩
  | .local _ .vmem, ⟨2, _⟩ => ⟨S1x8x128, .f32⟩
  | .local _ .vmem, ⟨3, _⟩ => ⟨S1x8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32768x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S33554432_S262144x128 : S33554432.ShapeCasts S262144x128
  inb_S1x8x128_S1x8x128_0_0_0 : ∀ a, (![0, 0, 0] : Fin 3 → Nat) a + S1x8x128.size a ≤ S1x8x128.size a
  h_S1x8x128 : 0 < S1x8x128.numel
  inb_S32768x128_S32768x128_0_0 : ∀ a, (![0, 0] : Fin 2 → Nat) a + S32768x128.size a ≤ S32768x128.size a
  h_S32768x128 : 0 < S32768x128.numel
  shapeCasts_S32768x128_S32768x128 : S32768x128.ShapeCasts S32768x128
  shapeCasts_S32768x128_S4096x8x128 : S32768x128.ShapeCasts S4096x8x128
  reduces_S4096x8x128_S8x128 : S4096x8x128.Reduces [0] S8x128
  shapeCasts_S1x8x128_S1x8x128 : S1x8x128.ShapeCasts S1x8x128
  shapeCasts_S8x128_S1x8x128 : S8x128.ShapeCasts S1x8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32768x128.size a ≤ S262144x128.size a
  hwx0_0 : ∀ i : grid0.Coords, EltTy.bits .f32 = 32 ∨ (Rect.block (s := S262144x128) S32768x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128.size a ≤ S2x8x128.size a
  hwx0_1 : ∀ i : grid0.Coords, EltTy.bits .f32 = 32 ∨ (Rect.block (s := S2x8x128) S1x8x128.size (cc0_transform_1 i) (hinb0_1 i)).WholeWords (EltTy.packing .f32)

variable [Facts₀]

abbrev win0_0 : Pipeline.Window sig grid0 :=
  Pipeline.Window.ofSpec (Memref.whole main_v0) S32768x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S_, .f32⟩
  | .hbm, ⟨2, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel

variable [Facts₀]

class Facts : Prop extends Facts₀ where

variable [Facts]
-- ==== Proof.LibRangeSums.lean ====
/-
  Finite sums cut into runs, in any commutative additive monoid.

  A sum over a·b consecutive naturals is a sum of a runs of b (or, position first, of b strides across the a runs), and
  a sum over a rank-3 index set is the triple sum over its coordinates. Nothing here depends on a particular program.
-/
import Idealize.ShloMosaic.Lib.ValueIdx

namespace Cert.LibRangeSums

open Idealize.ShloMosaic Idealize.ShloMosaic.ValueIdx Finset

variable {M : Type*} [AddCommMonoid M]

/-- A sum over a·b consecutive naturals is the sum of a runs of b: r = i·b + j with i < a, j < b. -/
theorem sum_range_mul (a b : ℕ) (f : ℕ → M) :
    ∑ r ∈ range (a * b), f r = ∑ i ∈ range a, ∑ j ∈ range b, f (i * b + j) := by
  induction a with
  | zero => simp
  | succ a ih => rw [Nat.succ_mul, sum_range_add, ih, sum_range_succ]

/-- The same sum taken position-in-the-run first: for each position j < b, across the a runs. -/
theorem sum_range_mul_pos_first (a b : ℕ) (f : ℕ → M) :
    ∑ r ∈ range (a * b), f r = ∑ j ∈ range b, ∑ i ∈ range a, f (i * b + j) := by
  rw [sum_range_mul, sum_comm]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over a rank-3 index set is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine sum_congr rfl fun a _ => ?_
  rw [Fintype.sum_prod_type]
  rfl

end Cert.LibRangeSums
-- ==== Proof.SumLaw.lean ====
/-
  Regrouping a sum of 2^25 terms.

  The array is read as 262144 rows of 128 lanes. Row r splits as r = 131072·p + 32768·k + 8·g + s with p < 2, k < 4,
  g < 4096, s < 8: p is the half of the rows, k the block of 32768 rows inside the half, g the group of eight rows
  inside the block, s the row inside the group. For each (p, s, lane) the PARTIAL sum adds the 4 · 4096 entries with that
  p, s and lane; the 2 · 8 · 128 partial sums together add every entry exactly once. This holds in any commutative additive
  monoid (the extended reals are one: no finiteness is used), because it only re-orders and re-brackets a finite sum.
-/
import proofs.«176810_j78108275245110_2_alg».proof.Proof.LibRangeSums

namespace Cert.SumLaw

open Idealize.ShloMosaic Idealize.ShloMosaic.ValueIdx Finset Cert.LibRangeSums

variable {M : Type*} [AddCommMonoid M]

/-! ## The row numbers, cut into halves, blocks, groups and rows -/

/-- The 262144 rows, taken as: half p, then row-in-group s, then block k, then group g. -/
theorem sum_rows (f : ℕ → M) :
    ∑ p ∈ range 2, ∑ s ∈ range 8, ∑ k ∈ range 4, ∑ g ∈ range 4096, f ((4 * p + k) * 32768 + (g * 8 + s))
      = ∑ r ∈ range 262144, f r := by
  symm
  calc ∑ r ∈ range 262144, f r
      = ∑ p ∈ range 2, ∑ j ∈ range 131072, f (p * 131072 + j) := sum_range_mul 2 131072 f
    _ = ∑ p ∈ range 2, ∑ s ∈ range 8, ∑ h ∈ range 16384, f (p * 131072 + (h * 8 + s)) :=
        sum_congr rfl fun p _ => sum_range_mul_pos_first 16384 8 fun j => f (p * 131072 + j)
    _ = ∑ p ∈ range 2, ∑ s ∈ range 8, ∑ k ∈ range 4, ∑ g ∈ range 4096, f (p * 131072 + ((k * 4096 + g) * 8 + s)) :=
        sum_congr rfl fun p _ => sum_congr rfl fun s _ => sum_range_mul 4 4096 fun h => f (p * 131072 + (h * 8 + s))
    _ = _ := sum_congr rfl fun p _ => sum_congr rfl fun s _ => sum_congr rfl fun k _ => sum_congr rfl fun g _ =>
        congrArg f (by ring)

/-! ## The array's rows, the partial sums, and their total -/

/-- The row with number r, read modulo the number of rows (so that it is a row for every natural r). -/
def wrap (r : ℕ) : Fin 262144 := ⟨r % 262144, Nat.mod_lt _ (by norm_num)⟩

theorem wrap_val (a : Fin 262144) : wrap a.val = a := Fin.ext (Nat.mod_eq_of_lt a.isLt)

/-- Row r of the n-th block of 32768 rows. -/
def rowAt (n r : ℕ) : Fin 262144 := wrap (n * 32768 + r)

/-- What block n contributes at row-in-group s and lane l: its 4096 groups' entries there, added. -/
def addend (x : (⟨2, ![262144, 128]⟩ : Shape).Idx → M) (n : ℕ) (s : Fin 8) (l : Fin 128) : M :=
  ∑ g : Fin 4096, x (ix2 (rowAt n (g.val * 8 + s.val)) l)

/-- The partial sums: at (p, s, l), the four blocks of half p added. -/
def partials (x : (⟨2, ![262144, 128]⟩ : Shape).Idx → M) (j : (⟨3, ![2, 8, 128]⟩ : Shape).Idx) : M :=
  ∑ k ∈ range 4, addend x (4 * (j 0).val + k) (j 1) (j 2)

/-- THE LAW: the 2048 partial sums add up to the sum of the whole array. -/
theorem sum_partials (x : (⟨2, ![262144, 128]⟩ : Shape).Idx → M) : ∑ j, partials x j = ∑ i, x i := by
  -- one row's lanes added: a function of the row number alone
  let F : ℕ → M := fun r => ∑ l : Fin 128, x (ix2 (wrap r) l)
  have hR : ∑ i, x i = ∑ r ∈ range 262144, F r := by
    rw [sum_idx2, Finset.sum_range]
    exact sum_congr rfl fun a _ => sum_congr rfl fun l _ => by rw [wrap_val]
  have hL : ∑ j, partials x j
      = ∑ p ∈ range 2, ∑ s ∈ range 8, ∑ k ∈ range 4, ∑ g ∈ range 4096, F ((4 * p + k) * 32768 + (g * 8 + s)) := by
    rw [sum_idx3, Finset.sum_range fun p => ∑ s ∈ range 8, ∑ k ∈ range 4, ∑ g ∈ range 4096, F ((4 * p + k) * 32768 + (g * 8 + s))]
    refine sum_congr rfl fun p _ => ?_
    rw [Finset.sum_range fun s => ∑ k ∈ range 4, ∑ g ∈ range 4096, F ((4 * p.val + k) * 32768 + (g * 8 + s))]
    refine sum_congr rfl fun s _ => ?_
    -- the lanes, outermost here, go innermost
    show ∑ l : Fin 128, ∑ k ∈ range 4, ∑ g : Fin 4096, x (ix2 (wrap ((4 * p.val + k) * 32768 + (g.val * 8 + s.val))) l) = _
    rw [sum_comm]
    refine sum_congr rfl fun k _ => ?_
    rw [sum_comm, Finset.sum_range fun g => F ((4 * p.val + k) * 32768 + (g * 8 + s.val))]
  rw [hL, hR, sum_rows]

end Cert.SumLaw
-- ==== Proof.Blocks.lean ====
/-
  Where a grid point's input block sits in the array, and what that array is.

  The grid is 2 × 4, point t = 4p + k in row-major order. The input window's block at (p, k) is block number 4p + k = t
  of 32768 consecutive rows, all 128 lanes: its entry (r, l) is the array's entry (32768·t + r, l). The array the region
  reads is not the argument itself but the argument reshaped, by the one host line before the region, from 33554432
  entries to 262144 rows of 128.
-/
import proofs.«176810_j78108275245110_2_alg».proof.Proof.Gen.KernelIdeal.Frame
import proofs.«176810_j78108275245110_2_alg».proof.Proof.SumLaw
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Partial

open Cert.KernelIdeal Cert.KernelIdeal.Gen

variable {F : FTy → Type} [FloatOps F]
variable (m : (ℓ : Loc nD τ sig) → Buf (Elt F) ℓ)

/-- Grid point t reads block number t of the rows, and every lane: decided over the eight points. -/
theorem in_index : ∀ t : Fin cfg0.N, win0_0.index t 0 = t.val ∧ win0_0.index t 1 = 0 :=
  (by decide +kernel : ∀ t : Fin grid0.N, win0_0.index t 0 = t.val ∧ win0_0.index t 1 = 0)

/-- Entry (r, l) of point t's input block is entry (32768·t + r, l) of the array. -/
theorem block_apply (c : Dev nD) (t : Fin cfg0.N) (r : Fin 32768) (l : Fin 128) :
    (iblk m c 0 t : Vec F S32768x128 .f32) (ix2 r l) = V m c main_v0 (ix2 (SumLaw.rowAt t.val r.val) l) := by
  unfold iblk
  rw [View.read_apply]
  show V m c main_v0 _ = V m c main_v0 _
  refine congrArg _ (funext fun a => Fin.ext ?_)
  have hN : t.val < 8 := lt_of_lt_of_eq t.isLt N_0
  match a with
  | ⟨0, _⟩ =>
    show win0_0.index t 0 * 32768 + 1 * r.val = (t.val * 32768 + r.val) % 262144
    rw [(in_index t).1]; omega
  | ⟨1, _⟩ =>
    show win0_0.index t 1 * 128 + 1 * l.val = l.val
    rw [(in_index t).2]; omega

/-- The array the region reads is the argument, reshaped to 262144 rows of 128. -/
theorem entry_rows (c : Dev nD) :
    (V m c main_v0 : S262144x128.Idx → Elt F .f32)
      = shapeCast S262144x128 (m ((c : Thread nD τ).loc main_arg0)) shapeCasts_S33554432_S262144x128 := by
  show StableHlo.after hostOps0 (fun b => m (c, b)) (Proc.devRef .tc main_v0) = _
  after_results
  rfl

end Cert.KernelIdeal.Partial

end
-- ==== Proof.CaseValues.lean ====
/-
  What one grid point leaves in the output block, in each of the body's two cases, for any float values.

  The body keeps an 8 × 128 block of partial sums. At the first point of a run of four (inner coordinate 0) it stores
  zeros into the block, reads them back, and stores "block + the point's contribution"; at the other three points it
  reads what the point before left and stores "that + the point's contribution". Each case ends with ONE store covering
  the whole block, so what the block holds afterwards is that store's value: the step function `k0_pay2` of the point's
  32768 × 128 input block and of the block's previous contents (zeros, `k0_pay1`, in the first case).
-/
import proofs.«176810_j78108275245110_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Partial

open Cert.KernelIdeal Cert.KernelIdeal.Gen

variable {F : FTy → Type} [FloatOps F]

/-- The loads and stores go through the whole block: offsets zero on every axis. -/
theorem off2 : (![0, 0] : Fin 2 → Nat) = fun _ => 0 := funext fun a => by fin_cases a <;> rfl
theorem off3 : (![0, 0, 0] : Fin 3 → Nat) = fun _ => 0 := funext fun a => by fin_cases a <;> rfl

/-- A point that is not the first of its run: the block, holding `acc`, ends at the step function of the input
    block `x` and `acc`. -/
theorem later_point (c : Dev nD) (i : grid0.Coords) (a2 : Memref sig .tc .vmem S32768x128 .f32) (h2 : a2.IsWhole)
    (a3 : Memref sig .tc .vmem S1x8x128 .f32) (h3 : a3.IsWhole) (hc : ¬cond0_0 i)
    (x : Vec F S32768x128 .f32) (acc : Vec F S1x8x128 .f32) :
    out0_B_1 c i a2 h2 a3 h3 hc x acc = k0_pay2 x acc := by
  unfold out0_B_1
  rw [View.read_writes_eq_canon _ _ _ (cover0_B_1 c i a2 h2 a3 h3 hc x acc)]
  unfold kernelRun0_B
  dsimp only
  rw [View.canon_unit_zero off3]
  simp only [View.readAt_eq_ld, h2.read_unread, h3.read_unread, View.ld_unit_zero (S := S32768x128) off2,
    View.ld_unit_zero (S := S1x8x128) off3]

/-- The first point of a run: the zeros just stored are what the step function starts from. -/
theorem first_point (c : Dev nD) (i : grid0.Coords) (a2 : Memref sig .tc .vmem S32768x128 .f32) (h2 : a2.IsWhole)
    (a3 : Memref sig .tc .vmem S1x8x128 .f32) (h3 : a3.IsWhole) (hc : cond0_0 i)
    (x : Vec F S32768x128 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S1x8x128) off3, View.readCov_unit_zero (S := S1x8x128) _ off3]
  simp only [View.readAt_eq_ld, h2.read_unread, View.ld_unit_zero (S := S32768x128) off2]

end Cert.KernelIdeal.Partial

end
-- ==== Proof.StepValue.lean ====
/-
  The step function at an entry, over the extended reals.

  The step reshapes the 32768 × 128 input block to 4096 groups of 8 rows, adds the groups (a sum over the group number
  g at each row-in-group s and lane l), and adds the result to the block's previous contents. So at (s, l) it is
  "previous + ∑ g, x (8g + s, l)". The reshapes keep the row-major position: row 8g + s of the block is row s of group g.
-/
import proofs.«176810_j78108275245110_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Partial

open Cert.KernelIdeal Cert.KernelIdeal.Gen

/-- Row 8g + s of a block of 32768 rows: row s of the g-th group of eight. -/
abbrev groupRow (g : Fin 4096) (s : Fin 8) : Fin 32768 := ⟨g.val * 8 + s.val, by omega⟩

/-- The block a run starts from is zero everywhere. -/
theorem zero_apply (j : S1x8x128.Idx) : k0_pay1 (F := Ideal) j = 0 := by
  show Ideal.ofBits .f32 0x00000000#32 = 0
  exact Ideal.ofBits_zero_f32

/-- The input block seen as 4096 groups of 8 rows: entry (g, s, l) is entry (8g + s, l). -/
theorem groups_apply (x : Vec Ideal S32768x128 .f32) (g : Fin 4096) (s : Fin 8) (l : Fin 128) :
    shapeCast S4096x8x128 (shapeCast S32768x128 x shapeCasts_S32768x128_S32768x128) shapeCasts_S32768x128_S4096x8x128
      (ix3 g s l) = x (ix2 (groupRow g s) l) := by
  rw [shapeCast_self]
  refine shapeCast_apply x _ (ix3 g s l) (ix2 (groupRow g s) l) ?_
  rw [Shape.rowMajor_val_two, Shape.rowMajor_val_three]
  show (g.val * 8 + s.val) * 128 + l.val = (g.val * 8 + s.val) * 128 + l.val
  rfl

/-- The step at (s, l): the previous contents there plus the 4096 groups' entries there. -/
theorem step_apply (x : Vec Ideal S32768x128 .f32) (acc : Vec Ideal S1x8x128 .f32) (s : Fin 8) (l : Fin 128) :
    k0_pay2 (F := Ideal) x acc (ix3 (0 : Fin 1) s l)
      = acc (ix3 (0 : Fin 1) s l) + ∑ g : Fin 4096, x (ix2 (groupRow g s) l) := by
  unfold k0_pay2
  dsimp only
  refine (addf_apply _ _ (ix3 (0 : Fin 1) s l)).trans ?_
  refine congrArg₂ (· + ·) (congrFun (shapeCast_self acc _) _) ?_
  -- the added leading axis of extent one does not move the entry
  refine (shapeCast_apply _ shapeCasts_S8x128_S1x8x128 (ix3 (0 : Fin 1) s l) (ix2 s l) ?_).trans ?_
  · rw [Shape.rowMajor_val_two, Shape.rowMajor_val_three]
    show s.val * 128 + l.val = (0 * 8 + s.val) * 128 + l.val
    omega
  -- the reduction over the group axis is the sum over the group number
  refine (Ideal.multiReduction_add_single _ (0x00000000#32) reduces_S4096x8x128_S8x128 _ _ (ix2 s l)).trans ?_
  refine Finset.sum_congr rfl fun g _ => ?_
  have e : reduces_S4096x8x128_S8x128.lift (ix2 s l) g = ix3 g s l :=
    funext fun a => Fin.ext (by match a with | ⟨0, _⟩ => rfl | ⟨1, _⟩ => rfl | ⟨2, _⟩ => rfl)
  rw [e]
  exact groups_apply x g s l

end Cert.KernelIdeal.Partial

end
-- ==== Proof.RunningSum.lean ====
/-
  What the output block holds after each grid point, over the extended reals: the running sum of a run of four.

  Points 4p, 4p + 1, 4p + 2, 4p + 3 share one output block. The first starts from zeros; each adds, at row-in-group s
  and lane l, the sum over the 4096 groups of eight rows of its own block of 32768 rows. So after point t = 4p + k the
  block holds, at (s, l), zero plus the contributions of blocks 4p, …, 4p + k — shown by induction along the run (the
  fold over a run of consecutive points), never by listing the points.
-/
import proofs.«176810_j78108275245110_2_alg».proof.Proof.Blocks
import proofs.«176810_j78108275245110_2_alg».proof.Proof.CaseValues
import proofs.«176810_j78108275245110_2_alg».proof.Proof.StepValue

noncomputable section

open Idealize.ShloMosaic Idealize.ShloMosaic.TcCoe Idealize.SL.Sem Idealize.ShloMosaic.ValueIdx
open Idealize.ShloMosaic.Pipeline (Dat)

namespace Cert.KernelIdeal.Partial

open Cert.KernelIdeal Cert.KernelIdeal.Gen

variable (m : (ℓ : Loc nD τ sig) → Buf (Elt Ideal) ℓ) (ρ : Dev nD → PrngReg)

/-- The array the region reads, its entries extended reals. -/
abbrev rows (c : Dev nD) : (⟨2, ![262144, 128]⟩ : Shape).Idx → EReal := V m c main_v0

/-- Point n's input block. -/
def blockAt (c : Dev nD) (n : ℕ) (h : n < cfg0.N) : Vec Ideal S32768x128 .f32 := iblk m c 0 ⟨n, h⟩

/-- What the first point of a run leaves: the step from the zero block. -/
def resetTo (c : Dev nD) (n : ℕ) (h : n < cfg0.N) : Vec Ideal S1x8x128 .f32 :=
  k0_pay2 (F := Ideal) (blockAt m c n h) (k0_pay1 (F := Ideal))

/-- What a later point leaves: the step from what the point before left. -/
def stepFrom (c : Dev nD) (n : ℕ) (h : n < cfg0.N) (acc : Vec Ideal S1x8x128 .f32) : Vec Ideal S1x8x128 .f32 :=
  k0_pay2 (F := Ideal) (blockAt m c n h) acc

/-- A step adds, at (s, l), the point's contribution: the 4096 groups' entries of its block of rows there. -/
theorem point_adds (c : Dev nD) (n : ℕ) (h : n < cfg0.N) (acc : Vec Ideal S1x8x128 .f32) (y : S1x8x128.Idx) :
    stepFrom m c n h acc y = acc y + SumLaw.addend (rows m c) n (y 1) (y 2) := by
  obtain ⟨s, l, rfl⟩ : ∃ (s : Fin 8) (l : Fin 128), y = ix3 (0 : Fin 1) s l :=
    ⟨y 1, y 2, funext fun a => by
      match a with
      | ⟨0, _⟩ => exact Fin.ext (Nat.lt_one_iff.mp (y 0).isLt)
      | ⟨1, _⟩ => rfl
      | ⟨2, _⟩ => rfl⟩
  unfold stepFrom
  refine (step_apply (blockAt m c n h) acc s l).trans ?_
  refine congrArg (acc _ + ·) ?_
  exact Finset.sum_congr rfl fun g _ => block_apply m c ⟨n, h⟩ (groupRow g s) l

/-- The first point of a run leaves zero plus its contribution. -/
theorem reset_adds (c : Dev nD) (n : ℕ) (h : n < cfg0.N) (y : S1x8x128.Idx) :
    resetTo m c n h y = 0 + SumLaw.addend (rows m c) n (y 1) (y 2) := by
  show stepFrom m c n h (k0_pay1 (F := Ideal)) y = _
  rw [point_adds, zero_apply]

/-- At the first point of a run (t divisible by 4) the block is reset. -/
theorem at_first (c : Dev nD) (n : ℕ) (h : n < cfg0.N) (h0 : n % 4 = 0) :
    outsAt0 m c n h = resetTo m c n h := by
  rw [outsAt0_A m c ⟨n, h⟩ h0]
  exact first_point (F := Ideal) c (grid0.coords ⟨n, h⟩) (ms0_0 ⟨n, h⟩) (hs0_0 ⟨n, h⟩) (ms0_1 ⟨n, h⟩) (hs0_1 ⟨n, h⟩)
    ((hcond0_0 ⟨n, h⟩).mpr h0) (iblk m c 0 ⟨n, h⟩)

/-- At every other point the block steps from what the point before left. -/
theorem at_later (c : Dev nD) (n : ℕ) (h : n + 1 < cfg0.N) (hne : ¬(n + 1) % 4 = 0) :
    outsAt0 m c (n + 1) h = stepFrom m c (n + 1) h (outsAt0 m c n (Nat.lt_of_succ_lt h)) := by
  rw [outsAt0_B m c ⟨n + 1, h⟩ hne]
  exact later_point (F := Ideal) c (grid0.coords ⟨n + 1, h⟩) (ms0_0 ⟨n + 1, h⟩) (hs0_0 ⟨n + 1, h⟩) (ms0_1 ⟨n + 1, h⟩)
    (hs0_1 ⟨n + 1, h⟩) (fun hc => hne ((hcond0_0 ⟨n + 1, h⟩).mp hc)) (iblk m c 0 ⟨n + 1, h⟩)
    (outsAt0 m c n (Nat.lt_of_succ_lt h))

/-- After point t the block holds zero plus the contributions of the points of t's run up to t. -/
theorem running (c : Dev nD) (t : ℕ) (ht : t < cfg0.N) (y : S1x8x128.Idx) :
    outsAt0 m c t ht y
      = 0 + ∑ k ∈ Finset.range (t % 4 + 1), SumLaw.addend (rows m c) (4 * (t / 4) + k) (y 1) (y 2) := by
  have h' : 4 * (t / 4) + t % 4 < cfg0.N := by rw [Nat.div_add_mod]; exact ht
  have key : outsAt0 m c t ht = Pipeline.accAt (resetTo m c) (stepFrom m c) (4 * (t / 4)) (t % 4) h' :=
    Pipeline.eq_accAt_of_mod (outsAt0 m c) 4 (resetTo m c) (stepFrom m c) (at_first m c) (at_later m c)
      (by norm_num) t ht h'
  rw [key]
  exact Pipeline.accAt_add_apply (resetTo m c) (stepFrom m c) (fun _ => (0 : EReal))
    (fun n (y : S1x8x128.Idx) => SumLaw.addend (rows m c) n (y 1) (y 2)) (4 * (t / 4)) 3
    (fun h y => reset_adds m c _ h y) (fun n h acc y _ _ => point_adds m c n h acc y) (t % 4)
    (Nat.le_of_lt_succ (Nat.mod_lt t (by norm_num))) h' y

end Cert.KernelIdeal.Partial

end
-- ==== Proof.FinalArray.lean ====
/-
  The kernel's output array after the run: the 2 × 8 × 128 partial sums.

  The output block of half p is written back once, after point 4p + 3, when it holds the whole run's sum: at (s, l) the
  contributions of blocks 4p, 4p + 1, 4p + 2, 4p + 3 of the rows. The two write-backs (points 3 and 7) fill the two
  halves of the array, so every entry of the array is covered and the array ends holding the partial sums.
-/
import proofs.«176810_j78108275245110_2_alg».proof.Proof.RunningSum

noncomputable section

open Idealize.ShloMosaic Idealize.ShloMosaic.TcCoe Idealize.SL.Sem Idealize.ShloMosaic.ValueIdx
open Idealize.ShloMosaic.Pipeline (Dat)

namespace Cert.KernelIdeal.Partial

open Cert.KernelIdeal Cert.KernelIdeal.Gen

variable (m : (ℓ : Loc nD τ sig) → Buf (Elt Ideal) ℓ) (ρ : Dev nD → PrngReg)

/-- The partial sums of the array the region reads: one per (half, row-in-group, lane). -/
def partialSums (c : Dev nD) : S2x8x128.Idx → EReal := SumLaw.partials (M := EReal) (rows m c)

/-- Point t = 4p + k works on output block p = t / 4, the whole 8 × 128 of it: decided over the eight points. -/
theorem out_index : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

/-- What a write-back writes is its block of the partial sums: it happens at the last point of a run, t = 4p + 3,
    when the running sum has all four contributions, and entry (0, s, l) of the block is entry (p, s, l) of the array. -/
theorem written (c : Dev nD) (t : Fin cfg0.N) (hf : (cfg0.win 1).flush t = true) :
    (dats m 0 c).flushed 1 t = ((cfg0.win 1).blk t).view.read (Elt Ideal) (partialSums m c) := by
  have h3 : t.val % 4 = 3 := (flush0_1 t).mp hf
  have hN : t.val < 8 := lt_of_lt_of_eq t.isLt N_0
  show (cfg0.win 1).cut (grid0.coords t) ((dats m 0 c).after 1 t) = _
  rw [after0_1]
  funext y
  rw [View.read_apply]
  show outsAt0 m c t.val t.isLt y = partialSums m c (((cfg0.win 1).blk t).view.emb y)
  have hy0 : (y 0).val < 1 := (y 0).isLt
  obtain ⟨e0, e1, e2⟩ := out_index t
  have e : ((cfg0.win 1).blk t).view.emb y = ix3 (⟨t.val / 4, by omega⟩ : Fin 2) (y 1) (y 2) := by
    funext a; apply Fin.ext
    match a with
    | ⟨0, _⟩ => show win0_1.index t 0 * 1 + 1 * (y 0).val = t.val / 4; omega
    | ⟨1, _⟩ => show win0_1.index t 1 * 8 + 1 * (y 1).val = (y 1).val; omega
    | ⟨2, _⟩ => show win0_1.index t 2 * 128 + 1 * (y 2).val = (y 2).val; omega
  rw [e, running, h3, zero_add]
  rfl

/-- An entry of the array is in point t's block iff each coordinate is in the block's range on its axis. -/
theorem in_block_iff (t : Fin cfg0.N) (i : S2x8x128.Idx) :
    i ∈ ((cfg0.win 1).blk t).view.set
      ↔ ∀ a : Fin 3, win0_1.index t a * S1x8x128.size a ≤ (i a).val
          ∧ (i a).val < win0_1.index t a * S1x8x128.size a + S1x8x128.size a := by
  show i ∈ ((View.whole main_v1).slice (win0_1.rect t)).set ↔ _
  rw [View.set_slice_whole, Rect.mem_set_unit]
  exact Iff.rfl

/-- Every entry (p, s, l) of the array is in the block written back after point 4p + 3. -/
theorem covered (i : S2x8x128.Idx) :
    ∃ t : Fin cfg0.N, (cfg0.win 1).flush t = true ∧ i ∈ ((cfg0.win 1).blk t).view.set := by
  have hi0 : (i 0).val < 2 := (i 0).isLt
  have hi1 : (i 1).val < 8 := (i 1).isLt
  have hi2 : (i 2).val < 128 := (i 2).isLt
  have hlt : 4 * (i 0).val + 3 < cfg0.N := by rw [show cfg0.N = 8 from N_0]; omega
  refine ⟨⟨4 * (i 0).val + 3, hlt⟩, (flush0_1 _).mpr (by show (4 * (i 0).val + 3) % 4 = 3; omega), ?_⟩
  rw [in_block_iff]
  obtain ⟨e0, e1, e2⟩ := out_index ⟨4 * (i 0).val + 3, hlt⟩
  have e0' : win0_1.index ⟨4 * (i 0).val + 3, hlt⟩ 0 = (4 * (i 0).val + 3) / 4 := e0
  intro a
  match a with
  | ⟨0, _⟩ =>
    show win0_1.index ⟨4 * (i 0).val + 3, hlt⟩ 0 * 1 ≤ (i 0).val
      ∧ (i 0).val < win0_1.index ⟨4 * (i 0).val + 3, hlt⟩ 0 * 1 + 1
    omega
  | ⟨1, _⟩ =>
    show win0_1.index ⟨4 * (i 0).val + 3, hlt⟩ 1 * 8 ≤ (i 1).val
      ∧ (i 1).val < win0_1.index ⟨4 * (i 0).val + 3, hlt⟩ 1 * 8 + 8
    omega
  | ⟨2, _⟩ =>
    show win0_1.index ⟨4 * (i 0).val + 3, hlt⟩ 2 * 128 ≤ (i 2).val
      ∧ (i 2).val < win0_1.index ⟨4 * (i 0).val + 3, hlt⟩ 2 * 128 + 128
    omega

/-- So the output array ends holding the partial sums. -/
theorem partial_sums (c : Dev nD) : (dats m 0 c).arrAt 1 cfg0.N = partialSums m c :=
  (dats m 0 c).arrAt_eq_of_cover 1 (partialSums m c) (written m c) covered

end Cert.KernelIdeal.Partial

end
-- ==== Proof.KernelRun.lean ====
/-
  The idealized kernel's result: zero plus the sum of every entry of the argument.

  After the region one host line sums the 2 × 8 × 128 partial sums onto the constant zero. The partial sums add up to the
  sum of the whole 262144 × 128 array (the regrouping law), and that array is the argument reshaped — the same entries
  in the same row-major order — so its sum is the argument's sum.
-/
import proofs.«176810_j78108275245110_2_alg».proof.Proof.FinalArray
import Idealize.ShloMosaic.Lib.Pipeline.FrameSuffix

noncomputable section

open Idealize.ShloMosaic Idealize.ShloMosaic.TcCoe Idealize.SL.Sem Idealize.ShloMosaic.ValueIdx
open Idealize.ShloMosaic.Pipeline (Dat)

namespace Cert.KernelIdeal.Partial

open Cert.KernelIdeal Cert.KernelIdeal.Gen

variable (m : (ℓ : Loc nD τ sig) → Buf (Elt Ideal) ℓ) (ρ : Dev nD → PrngReg)

/-- The host line after the region leaves, in the result, zero plus the sum of the partial sums. -/
theorem result_value (c : Dev nD) :
    Pipeline.afterTail₀ cfgs (dats m) 0 (V0 m) [hostOps1] c main_v2
      = fun _ => 0 + ∑ j, partialSums m c j := by
  unfold Pipeline.afterTail₀
  show StableHlo.after hostOps1 _ (Proc.devRef .tc main_v2) = _
  after_results
  have hv : Pipeline.withArrays (cfgs 0).spec c (V0 m c) (fun w => (dats m 0 c).arrAt w (cfgs 0).N) (Proc.devRef .tc main_v1)
      = partialSums m c :=
    (Pipeline.withArrays_arr spec0 launch0.win.arr_inj c _ _ 1).trans (partial_sums m c)
  rw [hv]
  funext i
  simp only [Host.reduceAdd, Ideal.hostReduceAdd_def]
  refine (Ideal.hostReduceAdd_total reducesTo_S2x8x128_S_d0_1_2 (fun b => b.elim0) (partialSums m c) _ i).trans ?_
  show Ideal.ofBits .f32 0x00000000#32 + _ = _
  rw [Ideal.ofBits_zero_f32]

/-- The argument's 33554432 entries, extended reals. -/
def entries (c : Dev nD) : S33554432.Idx → EReal := m ((c : Thread nD τ).loc main_arg0)

/-- The partial sums add up to the sum of the argument's entries. -/
theorem total (c : Dev nD) : ∑ j, partialSums m c j = ∑ i, entries m c i := by
  unfold partialSums
  rw [SumLaw.sum_partials]
  have e : rows m c = fun k => entries m c (Shape.reshapeEquiv shapeCasts_S33554432_S262144x128 k) := entry_rows m c
  rw [e]
  exact Equiv.sum_comp (Shape.reshapeEquiv shapeCasts_S33554432_S262144x128) (entries m c)

/-- The run, read: the result ends at zero plus the sum of the argument's entries, the argument unchanged. -/
theorem run : θ_run defs (onTc (τ := τ) (main (F := Ideal))) ⟨m, fun _ => 0, ρ⟩ fun r => ∀ c : Dev nD,
      r.2.mem ((c : Thread nD τ).loc main_v2) = (fun _ => 0 + ∑ i, entries m c i)
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans
          ((result_value m c).trans (by rw [total])),
        ((h c).2 main_arg0 (Pipeline.mem_restRefs_of main_arg0 (by decide) (by decide))).trans (W_main_arg0 m (dats m) c)⟩)
    (run_main m ρ)

end Cert.KernelIdeal.Partial

end
-- ==== Proof.RefRun.lean ====
/-
  The idealized reference's result: zero plus the sum of every entry of the argument.

  The reference is one host sum of the 33554432 entries onto the constant zero; over the extended reals that is the
  initial value, zero, plus the sum of the entries.
-/
import proofs.«176810_j78108275245110_2_alg».proof.Proof.Gen.ReferenceIdeal.Read

noncomputable section

open Idealize.ShloMosaic Idealize.ShloMosaic.TcCoe Idealize.SL.Sem

namespace Cert.ReferenceIdeal.Total

open Cert.ReferenceIdeal Cert.ReferenceIdeal.Gen

/-- The reference's result term is zero plus the sum of the argument's entries. -/
theorem result_value (x : S33554432.Idx → EReal) :
    Host.reduceAdd (F := Ideal) (x : FVec Ideal S33554432 .f32) (constant (F := Ideal) S_ .f32 0x00000000#32)
        reducesTo_S33554432_S_d0 h_S_
      = fun _ => 0 + ∑ i, x i := by
  rw [Read.val_main_v0_eq]
  funext i
  rw [Read.val_main_v0_apply, Read.val_main_cst_apply]
  show Ideal.ofBits .f32 0x00000000#32 + _ = _
  rw [Ideal.ofBits_zero_f32]

end Cert.ReferenceIdeal.Total

end
-- ==== Proof.lean ====
/-
  A sum of 2^25 floats, computed block by block, against the sum taken at once.

  The kernel reads x as 262144 rows of 128 lanes and walks a 2 × 4 grid: point (p, k) takes block 4p + k of 32768
  rows, adds its 4096 groups of eight rows into an 8 × 128 block of partial sums kept per half p (zeroed at k = 0,
  written back after k = 3), and the host finally adds the 2 × 8 × 128 partial sums onto zero. The reference adds the
  33554432 entries onto zero in one host sum.

  Over the extended reals every operation involved is the exact sum, and addition there is commutative and
  associative with 0 neutral (also at the infinities), so both results are 0 + ∑ x: the kernel's because row
  r = 131072·p + 32768·k + 8·g + s is counted exactly once, in the partial sum at (p, s, lane) — the regrouping law —
  and the reshape keeps the row-major order of the entries. No finiteness of the input is needed for the value; the
  three frames hold for every input. The ideal pass rewrote nothing, so the kernel's idealization is its own text.
-/
import proofs.«176810_j78108275245110_2_alg».proof.Defs
import proofs.«176810_j78108275245110_2_alg».proof.Proof.Gen.Kernel
import proofs.«176810_j78108275245110_2_alg».proof.Proof.Gen.Kernel.Skeleton
import proofs.«176810_j78108275245110_2_alg».proof.Proof.Gen.Kernel.Launch
import proofs.«176810_j78108275245110_2_alg».proof.Proof.Gen.Kernel.Points
import proofs.«176810_j78108275245110_2_alg».proof.Proof.Gen.Kernel.Frame
import proofs.«176810_j78108275245110_2_alg».proof.Proof.Gen.KernelIdeal
import proofs.«176810_j78108275245110_2_alg».proof.Proof.Gen.KernelIdeal.Skeleton
import proofs.«176810_j78108275245110_2_alg».proof.Proof.Gen.KernelIdeal.Launch
import proofs.«176810_j78108275245110_2_alg».proof.Proof.Gen.KernelIdeal.Points
import proofs.«176810_j78108275245110_2_alg».proof.Proof.Gen.KernelIdeal.Frame
import proofs.«176810_j78108275245110_2_alg».proof.Proof.Gen.ReferenceIdeal
import proofs.«176810_j78108275245110_2_alg».proof.Proof.Gen.ReferenceIdeal.Run
import proofs.«176810_j78108275245110_2_alg».proof.Proof.Gen.ReferenceIdeal.Read
import proofs.«176810_j78108275245110_2_alg».proof.Proof.Gen.Pre_finite_inputs
import proofs.«176810_j78108275245110_2_alg».proof.Proof.KernelRun
import proofs.«176810_j78108275245110_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs, and leaves its argument as it was. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference is two host lines: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten in the idealization. -/
theorem preserves : Cert.preserves_Kernel_KernelIdeal := trivial

/-- Both programs end at zero plus the sum of the argument's entries, from arguments that agree. -/
theorem algebraic : Cert.algebraic_KernelIdeal_ReferenceIdeal := by
  intro m ρ m' ρ' _ hagree
  refine ⟨fun c _ => 0 + ∑ i, Cert.KernelIdeal.Partial.entries m c i, Cert.KernelIdeal.Partial.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.Total.result_value (Cert.KernelIdeal.Partial.entries m c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
